-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S50000x32x1 : Shape := ⟨3, ![50000, 32, 1]⟩
abbrev S50000x32x128 : Shape := ⟨3, ![50000, 32, 128]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S50000x32x1 : S_.BroadcastsInDim S50000x32x1 (![] : Fin 0 → Fin S50000x32x1.rank)
  reducesTo_S50000x32x1_S_d0_1_2 : S50000x32x1.ReducesTo [0, 1, 2] S_
  bcast_S_S50000x32x128 : S_.BroadcastsInDim S50000x32x128 (![] : Fin 0 → Fin S50000x32x128.rank)
  reducesTo_S50000x32x128_S_d0_1_2 : S50000x32x128.ReducesTo [0, 1, 2] S_

variable [Facts]

def fn_part1 {F : FTy → Type} [FloatOps F] (main_arg4 : FVec F S50000x32x128 .f32) (main_v13 : IVec S_ 1) (main_v16 : IVec S50000x32x1 1) : IVec S_ 1 :=
  let main_c_5 : IVec S_ 1 := constantI S_ 1 1#1
  let main_v17 : IVec S_ 1 := (fun x v => Host.reduce IntOp.andi x v reducesTo_S50000x32x1_S_d0_1_2 h_S_) main_v16 main_c_5
  let main_v18 : IVec S_ 1 := andi main_v13 main_v17
  let main_v19 : FVec F S50000x32x128 .f32 := Host.absf main_arg4
  let main_cst_6 : FVec F S_ .f32 := constant S_ .f32 0x7F800000#32
  let main_v20 : FVec F S50000x32x128 .f32 := broadcastInDim S50000x32x128 ![] bcast_S_S50000x32x128 main_cst_6
  let main_v21 : IVec S50000x32x128 1 := cmpf .olt main_v19 main_v20
  let main_c_7 : IVec S_ 1 := constantI S_ 1 1#1
  let main_v22 : IVec S_ 1 := (fun x v => Host.reduce IntOp.andi x v reducesTo_S50000x32x128_S_d0_1_2 h_S_) main_v21 main_c_7
  let main_v23 : IVec S_ 1 := andi main_v18 main_v22
  main_v23

def fn {F : FTy → Type} [FloatOps F] (main_arg0 : FVec F S50000x1 .f32) (main_arg1 : FVec F S50000x1 .f32) (main_arg2 : FVec F S50000x32x1 .f32) (main_arg3 : FVec F S50000x32x1 .f32) (main_arg4 : FVec F S50000x32x128 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S50000x32x1 .f32 := Host.absf main_arg2
  let main_cst_2 : FVec F S_ .f32 := constant S_ .f32 0x7F800000#32
  let main_v10 : FVec F S50000x32x1 .f32 := broadcastInDim S50000x32x1 ![] bcast_S_S50000x32x1 main_cst_2
  let main_v11 : IVec S50000x32x1 1 := cmpf .olt main_v9 main_v10
  let main_c_3 : IVec S_ 1 := constantI S_ 1 1#1
  let main_v12 : IVec S_ 1 := (fun x v => Host.reduce IntOp.andi x v reducesTo_S50000x32x1_S_d0_1_2 h_S_) main_v11 main_c_3
  let main_v13 : IVec S_ 1 := andi main_v8 main_v12
  let main_v14 : FVec F S50000x32x1 .f32 := Host.absf main_arg3
  let main_cst_4 : FVec F S_ .f32 := constant S_ .f32 0x7F800000#32
  let main_v15 : FVec F S50000x32x1 .f32 := broadcastInDim S50000x32x1 ![] bcast_S_S50000x32x1 main_cst_4
  let main_v16 : IVec S50000x32x1 1 := cmpf .olt main_v14 main_v15
  fn_part1 (F := F) main_arg4 main_v13 main_v16
-- ==== Kernel.lean ====
abbrev S50000x1 : Shape := ⟨2, ![50000, 1]⟩
abbrev S50000x32x1 : Shape := ⟨3, ![50000, 32, 1]⟩
abbrev S50000x32x128 : Shape := ⟨3, ![50000, 32, 128]⟩
abbrev S50000x128 : Shape := ⟨2, ![50000, 128]⟩
abbrev S400x1 : Shape := ⟨2, ![400, 1]⟩
abbrev S400x32x1 : Shape := ⟨3, ![400, 32, 1]⟩
abbrev S400x32x128 : Shape := ⟨3, ![400, 32, 128]⟩
abbrev S400x128 : Shape := ⟨2, ![400, 128]⟩
abbrev S400x1x1 : Shape := ⟨3, ![400, 1, 1]⟩

abbrev nBuf : Space → Nat
  | .hbm => 6
  | .vmem => 12
  | .smem => 0
  | _ => 0

abbrev bufTy : (tb : Table) → Fin (tcTables nBuf tb) → BufTy
  | .hbm, ⟨0, _⟩ => ⟨S50000x1, .f32⟩
  | .hbm, ⟨1, _⟩ => ⟨S50000x1, .f32⟩
  | .hbm, ⟨2, _⟩ => ⟨S50000x32x1, .f32⟩
  | .hbm, ⟨3, _⟩ => ⟨S50000x32x1, .f32⟩
  | .hbm, ⟨4, _⟩ => ⟨S50000x32x128, .f32⟩
  | .hbm, ⟨5, _⟩ => ⟨S50000x128, .f32⟩
  | .local _ .vmem, ⟨0, _⟩ => ⟨S400x1, .f32⟩
  | .local _ .vmem, ⟨1, _⟩ => ⟨S400x1, .f32⟩
  | .local _ .vmem, ⟨2, _⟩ => ⟨S400x1, .f32⟩
  | .local _ .vmem, ⟨3, _⟩ => ⟨S400x1, .f32⟩
  | .local _ .vmem, ⟨4, _⟩ => ⟨S400x32x1, .f32⟩
  | .local _ .vmem, ⟨5, _⟩ => ⟨S400x32x1, .f32⟩
  | .local _ .vmem, ⟨6, _⟩ => ⟨S400x32x1, .f32⟩
  | .local _ .vmem, ⟨7, _⟩ => ⟨S400x32x1, .f32⟩
  | .local _ .vmem, ⟨8, _⟩ => ⟨S400x32x128, .f32⟩
  | .local _ .vmem, ⟨9, _⟩ => ⟨S400x32x128, .f32⟩
  | .local _ .vmem, ⟨10, _⟩ => ⟨S400x128, .f32⟩
  | .local _ .vmem, ⟨11, _⟩ => ⟨S400x128, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S400x1_S400x1_0_0 : ∀ a, (![0, 0] : Fin 2 → Nat) a + S400x1.size a ≤ S400x1.size a
  h_S400x1 : 0 < S400x1.numel
  inb_S400x32x1_S400x32x1_0_0_0 : ∀ a, (![0, 0, 0] : Fin 3 → Nat) a + S400x32x1.size a ≤ S400x32x1.size a
  h_S400x32x1 : 0 < S400x32x1.numel
  inb_S400x32x128_S400x32x128_0_0_0 : ∀ a, (![0, 0, 0] : Fin 3 → Nat) a + S400x32x128.size a ≤ S400x32x128.size a
  h_S400x32x128 : 0 < S400x32x128.numel
  shapeCasts_S400x1_S400x1x1 : S400x1.ShapeCasts S400x1x1
  broadcasts_S400x1x1_S400x32x1 : S400x1x1.Broadcasts S400x32x1
  reduces_S400x32x1_S400x1 : S400x32x1.Reduces [1] S400x1
  broadcasts_S400x32x1_S400x32x128 : S400x32x1.Broadcasts S400x32x128
  reduces_S400x32x128_S400x128 : S400x32x128.Reduces [1] S400x128
  inb_S400x128_S400x128_0_0 : ∀ a, (![0, 0] : Fin 2 → Nat) a + S400x128.size a ≤ S400x128.size a
  h_S400x128 : 0 < S400x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1.size a ≤ S50000x1.size a
  hwx0_0 : ∀ i : grid0.Coords, EltTy.bits .f32 = 32 ∨ (Rect.block (s := S50000x1) S400x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1.size a ≤ S50000x1.size a
  hwx0_1 : ∀ i : grid0.Coords, EltTy.bits .f32 = 32 ∨ (Rect.block (s := S50000x1) S400x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x32x1.size a ≤ S50000x32x1.size a
  hwx0_2 : ∀ i : grid0.Coords, EltTy.bits .f32 = 32 ∨ (Rect.block (s := S50000x32x1) S400x32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x32x1.size a ≤ S50000x32x1.size a
  hwx0_3 : ∀ i : grid0.Coords, EltTy.bits .f32 = 32 ∨ (Rect.block (s := S50000x32x1) S400x32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x32x128.size a ≤ S50000x32x128.size a
  hwx0_4 : ∀ i : grid0.Coords, EltTy.bits .f32 = 32 ∨ (Rect.block (s := S50000x32x128) S400x32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S50000x128.size a
  hwx0_5 : ∀ i : grid0.Coords, EltTy.bits .f32 = 32 ∨ (Rect.block (s := S50000x128) S400x128.size (cc0_transform_5 i) (hinb0_5 i)).WholeWords (EltTy.packing .f32)

variable [Facts₀]

abbrev win0_0 : Pipeline.Window sig grid0 :=
  Pipeline.Window.ofSpec (Memref.whole main_arg0) S400x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S400x32x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S400x32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x1 : Shape := ⟨2, ![50000, 1]⟩
abbrev S50000x32x1 : Shape := ⟨3, ![50000, 32, 1]⟩
abbrev S50000x32x128 : Shape := ⟨3, ![50000, 32, 128]⟩
abbrev S50000x1x1 : Shape := ⟨3, ![50000, 1, 1]⟩
abbrev S_ : Shape := ⟨0, ![]⟩
abbrev S50000x32 : Shape := ⟨2, ![50000, 32]⟩
abbrev S50000x128 : Shape := ⟨2, ![50000, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x1, .f32⟩
  | .hbm, ⟨1, _⟩ => ⟨S50000x1, .f32⟩
  | .hbm, ⟨2, _⟩ => ⟨S50000x32x1, .f32⟩
  | .hbm, ⟨3, _⟩ => ⟨S50000x32x1, .f32⟩
  | .hbm, ⟨4, _⟩ => ⟨S50000x32x128, .f32⟩
  | .hbm, ⟨5, _⟩ => ⟨S50000x1x1, .f32⟩
  | .hbm, ⟨6, _⟩ => ⟨S50000x1x1, .f32⟩
  | .hbm, ⟨7, _⟩ => ⟨S50000x32x1, .f32⟩
  | .hbm, ⟨8, _⟩ => ⟨S50000x32x1, .f32⟩
  | .hbm, ⟨9, _⟩ => ⟨S50000x32x1, .f32⟩
  | .hbm, ⟨10, _⟩ => ⟨S50000x32x1, .f32⟩
  | .hbm, ⟨11, _⟩ => ⟨S50000x32x1, .f32⟩
  | .hbm, ⟨12, _⟩ => ⟨S_, .f32⟩
  | .hbm, ⟨13, _⟩ => ⟨S50000x32, .f32⟩
  | .hbm, ⟨14, _⟩ => ⟨S50000x32x1, .f32⟩
  | .hbm, ⟨15, _⟩ => ⟨S50000x32x1, .f32⟩
  | .hbm, ⟨16, _⟩ => ⟨S_, .f32⟩
  | .hbm, ⟨17, _⟩ => ⟨S_, .f32⟩
  | .hbm, ⟨18, _⟩ => ⟨S50000x32x1, .f32⟩
  | .hbm, ⟨19, _⟩ => ⟨S50000x32x1, .i1⟩
  | .hbm, ⟨20, _⟩ => ⟨S_, .f32⟩
  | .hbm, ⟨21, _⟩ => ⟨S50000x32x1, .f32⟩
  | .hbm, ⟨22, _⟩ => ⟨S50000x32x1, .f32⟩
  | .hbm, ⟨23, _⟩ => ⟨S50000x32x1, .f32⟩
  | .hbm, ⟨24, _⟩ => ⟨S_, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S50000x1x1, .f32⟩
  | .hbm, ⟨30, _⟩ => ⟨S50000x32x1, .f32⟩
  | .hbm, ⟨31, _⟩ => ⟨S50000x32x1, .f32⟩
  | .hbm, ⟨32, _⟩ => ⟨S50000x32x1, .f32⟩
  | .hbm, ⟨33, _⟩ => ⟨S_, .f32⟩
  | .hbm, ⟨34, _⟩ => ⟨S50000x1, .f32⟩
  | .hbm, ⟨35, _⟩ => ⟨S50000x1x1, .f32⟩
  | .hbm, ⟨36, _⟩ => ⟨S50000x32x1, .f32⟩
  | .hbm, ⟨37, _⟩ => ⟨S50000x32x1, .f32⟩
  | .hbm, ⟨38, _⟩ => ⟨S50000x32x128, .f32⟩
  | .hbm, ⟨39, _⟩ => ⟨S50000x32x128, .f32⟩
  | .hbm, ⟨40, _⟩ => ⟨S_, .f32⟩
  | .hbm, ⟨41, _⟩ => ⟨S50000x128, .f32⟩
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩

abbrev nD : Nat := 1
abbrev τ : Topo := Topo.v7x

variable {F : FTy → Type} [FloatOps F]

class Facts₀ : Prop where
  bcast_S50000x1_S50000x1x1_0_2 : S50000x1.BroadcastsInDim S50000x1x1 (![0, 2] : Fin 2 → Fin S50000x1x1.rank)
  bcast_S50000x1x1_S50000x32x1_0_1_2 : S50000x1x1.BroadcastsInDim S50000x32x1 (![0, 1, 2] : Fin 3 → Fin S50000x32x1.rank)
  reducesTo_S50000x32x1_S50000x32_d2 : S50000x32x1.ReducesTo [2] S50000x32
  h_S_ : 0 < S_.numel
  bcast_S50000x32_S50000x32x1_0_1 : S50000x32.BroadcastsInDim S50000x32x1 (![0, 1] : Fin 2 → Fin S50000x32x1.rank)
  bcast_S_S50000x32x1 : S_.BroadcastsInDim S50000x32x1 (![] : Fin 0 → Fin S50000x32x1.rank)
  reducesTo_S50000x32x1_S50000x1_d1 : S50000x32x1.ReducesTo [1] S50000x1
  bcast_S_S50000x1 : S_.BroadcastsInDim S50000x1 (![] : Fin 0 → Fin S50000x1.rank)
  bcast_S50000x32x1_S50000x32x128_0_1_2 : S50000x32x1.BroadcastsInDim S50000x32x128 (![0, 1, 2] : Fin 3 → Fin S50000x32x128.rank)
  reducesTo_S50000x32x128_S50000x128_d1 : S50000x32x128.ReducesTo [1] S50000x128

variable [Facts₀]

class Facts : Prop extends Facts₀ where

variable [Facts]
-- ==== Proof.RefRun.lean ====
/-
  The reference program's run, read back. Its @main is a straight line of host operations once the two
  functions it calls (the leaky rectifier, and the select inside it) are written out at their call sites:
  the pre-activation a1 + a2' + 2·(b1 + a1'), the rectifier, the maximum over the 32 neighbours, the
  exponentials of the differences, their sum, the quotients, the products with the features and the sum
  over the neighbours. Every weakly fair execution terminates with the result buffer at that composed
  term of the five argument arrays, the arguments unchanged.
-/
import proofs.«166109_j1451698946384_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the rectifier's seven written out where it is called. -/
abbrev ops : List (HloOp τ sig (Elt F)) :=
  [ unary main_arg0 main_v0 (broadcastInDim S50000x1x1 ![0, 2] bcast_S50000x1_S50000x1x1_0_2),
    unary main_arg1 main_v1 (broadcastInDim S50000x1x1 ![0, 2] bcast_S50000x1_S50000x1x1_0_2),
    unary main_v0 main_v2 (broadcastInDim S50000x32x1 ![0, 1, 2] bcast_S50000x1x1_S50000x32x1_0_1_2),
    binary main_v2 main_arg3 main_v3 addf,
    unary main_v1 main_v4 (broadcastInDim S50000x32x1 ![0, 1, 2] bcast_S50000x1x1_S50000x32x1_0_1_2),
    binary main_v4 main_arg2 main_v5 addf,
    binary main_v3 main_v5 main_v6 addf,
    nullary main_cst (constant S_ .f32 0x00000000#32),
    binary main_v6 main_cst main_v7 (fun x v => Host.reduceAdd x v reducesTo_S50000x32x1_S50000x32_d2 h_S_),
    unary main_v7 main_v8 (broadcastInDim S50000x32x1 ![0, 1] bcast_S50000x32_S50000x32x1_0_1),
    binary main_v8 main_v5 main_v9 addf,
    nullary main_cst_0 (constant S_ .f32 0x3C23D70A#32),
    TRef.nullary main_call0.cst (constant S_ .f32 0x00000000#32),
    TRef.unary main_call0.cst main_call0.v0 (broadcastInDim S50000x32x1 ![] bcast_S_S50000x32x1),
    TRef.binary (.of main_v9) main_call0.v0 main_call0.v1 (cmpf .oge),
    TRef.unary (.of main_cst_0) main_call0.v2 id,
    TRef.unary main_call0.v2 main_call0.v3 (broadcastInDim S50000x32x1 ![] bcast_S_S50000x32x1),
    TRef.binary main_call0.v3 (.of main_v9) main_call0.v4 mulf,
    TRef.ternary main_call0.v1 (.of main_v9) main_call0.v4 main_call0.call0.v0 select,
    nullary main_cst_1 (constant S_ .f32 0xFF800000#32),
    binary main_v10 main_cst_1 main_v11 (fun x v => Host.reduce FloatOps.maximumf x v reducesTo_S50000x32x1_S50000x1_d1 h_S_),
    nullary main_cst_2 (constant S_ .f32 0xFF800000#32),
    unary main_cst_2 main_v12 (broadcastInDim S50000x1 ![] bcast_S_S50000x1),
    binary main_v12 main_v11 main_v13 maximumf,
    unary main_v13 main_v14 (broadcastInDim S50000x1x1 ![0, 2] bcast_S50000x1_S50000x1x1_0_2),
    unary main_v14 main_v15 (broadcastInDim S50000x32x1 ![0, 1, 2] bcast_S50000x1x1_S50000x32x1_0_1_2),
    binary main_v10 main_v15 main_v16 subf,
    unary main_v16 main_v17 Host.exp,
    nullary main_cst_3 (constant S_ .f32 0x00000000#32),
    binary main_v17 main_cst_3 main_v18 (fun x v => Host.reduceAdd x v reducesTo_S50000x32x1_S50000x1_d1 h_S_),
    unary main_v18 main_v19 (broadcastInDim S50000x1x1 ![0, 2] bcast_S50000x1_S50000x1x1_0_2),
    unary main_v19 main_v20 (broadcastInDim S50000x32x1 ![0, 1, 2] bcast_S50000x1x1_S50000x32x1_0_1_2),
    binary main_v17 main_v20 main_v21 Host.divf,
    unary main_v21 main_v22 (broadcastInDim S50000x32x128 ![0, 1, 2] bcast_S50000x32x1_S50000x32x128_0_1_2),
    binary main_v22 main_arg4 main_v23 mulf,
    nullary main_cst_4 (constant S_ .f32 0x00000000#32),
    binary main_v23 main_cst_4 main_v24 (fun x v => Host.reduceAdd x v reducesTo_S50000x32x128_S50000x128_d1 h_S_) ]

set_option maxRecDepth 2048 in
/-- @main is that straight line: the two functions unfolded at their calls, the sequencing reassociated. -/
theorem main_eq (c : Dev nD) : main (F := F) c = seq ops := by
  simp only [main, fn_leaky_relu.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., binary_bufs_sub .., unary_bufs_sub .., binary_bufs_sub ..,
    binary_bufs_sub .., nullary_bufs_sub .., binary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., unary_bufs_sub .., binary_bufs_sub .., nullary_bufs_sub ..,
    binary_bufs_sub ..⟩

/-! ## The composed term, by stages -/

/-- A per-node column copied to every one of the node's 32 neighbour slots. -/
def up (a : FVec F S50000x1 .f32) : FVec F S50000x32x1 .f32 :=
  broadcastInDim S50000x32x1 ![0, 1, 2] bcast_S50000x1x1_S50000x32x1_0_1_2
    (broadcastInDim S50000x1x1 ![0, 2] bcast_S50000x1_S50000x1x1_0_2 a)

/-- The leaky rectifier: `x` where `x ≥ 0`, the slope times `x` elsewhere. -/
def lrelu (x : FVec F S50000x32x1 .f32) : FVec F S50000x32x1 .f32 :=
  select (cmpf .oge x (broadcastInDim S50000x32x1 ![] bcast_S_S50000x32x1 (constant S_ .f32 0x00000000#32))) x
    (mulf (broadcastInDim S50000x32x1 ![] bcast_S_S50000x32x1 (id (constant S_ .f32 0x3C23D70A#32))) x)

/-- The attention logits: with `p = a1 + a2'` and `q = b1 + a1'`, the rectifier of `(p + q) + q`, the sum `p + q`
    passed through a sum over its one-element last axis. -/
def logits (a0 a1 : FVec F S50000x1 .f32) (a2 a3 : FVec F S50000x32x1 .f32) : FVec F S50000x32x1 .f32 :=
  lrelu (addf
    (broadcastInDim S50000x32x1 ![0, 1] bcast_S50000x32_S50000x32x1_0_1
      (Host.reduceAdd (addf (addf (up a0) a3) (addf (up a1) a2)) (constant S_ .f32 0x00000000#32)
        reducesTo_S50000x32x1_S50000x32_d2 h_S_))
    (addf (up a1) a2))

/-- The row maximum of the logits over the neighbours (joined once more with `-∞`). -/
def rowMax (L : FVec F S50000x32x1 .f32) : FVec F S50000x1 .f32 :=
  maximumf (broadcastInDim S50000x1 ![] bcast_S_S50000x1 (constant S_ .f32 0xFF800000#32))
    (Host.reduce FloatOps.maximumf L (constant S_ .f32 0xFF800000#32) reducesTo_S50000x32x1_S50000x1_d1 h_S_)

/-- The exponentials of the logits less their row maximum. -/
def expo (L : FVec F S50000x32x1 .f32) : FVec F S50000x32x1 .f32 :=
  Host.exp (subf L (up (rowMax L)))

/-- The softmax weights over the neighbours. -/
def weights (L : FVec F S50000x32x1 .f32) : FVec F S50000x32x1 .f32 :=
  Host.divf (expo L) (up (Host.reduceAdd (expo L) (constant S_ .f32 0x00000000#32) reducesTo_S50000x32x1_S50000x1_d1 h_S_))

/-- The reference's result: the neighbours' features summed with the softmax weights. -/
def result (a0 a1 : FVec F S50000x1 .f32) (a2 a3 : FVec F S50000x32x1 .f32) (a4 : FVec F S50000x32x128 .f32) :
    FVec F S50000x128 .f32 :=
  Host.reduceAdd
    (mulf (broadcastInDim S50000x32x128 ![0, 1, 2] bcast_S50000x32x1_S50000x32x128_0_1_2 (weights (logits a0 a1 a2 a3))) a4)
    (constant S_ .f32 0x00000000#32) reducesTo_S50000x32x128_S50000x128_d1 h_S_

set_option maxRecDepth 8192 in
/-- On every device, from any memory with zero counters: every weakly fair execution of @main terminates with the
    result buffer at `result` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v24).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.Attn.lean ====
/-
  One node's attention, as a function of 32 logits and 32 feature values on the extended reals: the weights are
  the softmax of the logits (each logit less the row maximum, exponentiated, over the sum of those exponentials)
  and the result is the weighted sum of the features. Both programs compute it; they differ in how the
  pre-activation under the rectifier is grouped, a1 + 2·b1 + (a2' + 2·a1') against ((a1 + a2') + (b1 + a1')) + (b1 + a1'),
  and these agree on real numbers.
-/
import Idealize.ShloMosaic.PureOps.Ideal.Laws
import Idealize.ShloMosaic.Lib.IdealHost

noncomputable section

namespace Cert.Gat

open Idealize.ShloMosaic

/-- The f32 word `0x40000000` is the real number 2. -/
theorem ofBits_two : Ideal.ofBits .f32 0x40000000#32 = ((2 : ℝ) : EReal) := by
  simp [Ideal.ofBits, Ideal.ieee, -EReal.coe_mul]; norm_num

/-- The leaky rectifier on one value: `x` where `0 ≤ x`, the slope (the f32 nearest 0.01) times `x` elsewhere. -/
def lrelu (x : EReal) : EReal :=
  Scalar.select (FloatOps.cmpf (F := Ideal) (φ := .f32) .oge x (Ideal.ofBits .f32 0x00000000#32)) x
    (Ideal.ofBits .f32 0x3C23D70A#32 * x)

/-- The greatest of 32 logits, as a fold of `max` from `-∞`. -/
def rowMax (L : Fin 32 → EReal) : EReal :=
  (Finset.univ : Finset (Fin 32)).fold max (Ideal.ofBits .f32 0xFF800000#32) L

/-- The softmax weight of neighbour `k`. -/
def wt (L : Fin 32 → EReal) (k : Fin 32) : EReal :=
  Ideal.div (Ideal.exp (L k - rowMax L)) (∑ k' : Fin 32, Ideal.exp (L k' - rowMax L))

/-- The features summed with the softmax weights. -/
def agg (L v : Fin 32 → EReal) : EReal := ∑ k : Fin 32, wt L k * v k

/-- Joining `-∞` to the row maximum once more changes nothing: the fold already starts there. -/
theorem max_rowMax (L : Fin 32 → EReal) : max (Ideal.ofBits .f32 0xFF800000#32) (rowMax L) = rowMax L :=
  max_eq_right ((Finset.le_fold_max _).mpr (Or.inl le_rfl))

/-- The pre-activation as the kernel groups it: `(a + 2·b) + (d + 2·c)`. -/
def preK (a b c d : EReal) : EReal :=
  (a + Ideal.ofBits .f32 0x40000000#32 * b) + (d + Ideal.ofBits .f32 0x40000000#32 * c)

/-- The pre-activation as the reference groups it: `(0 + ((a + d) + (b + c))) + (b + c)`. -/
def preR (a b c d : EReal) : EReal :=
  (Ideal.ofBits .f32 0x00000000#32 + ((a + d) + (b + c))) + (b + c)

/-- On real numbers the two groupings are one number. -/
theorem preK_eq_preR (a b c d : ℝ) : preK a b c d = preR a b c d := by
  unfold preK preR
  rw [ofBits_two, Ideal.ofBits_zero_f32, zero_add]
  norm_cast
  ring

end Cert.Gat

end
-- ==== Proof.KernelRow.lean ====
/-
  The kernel body's stored value, read at one entry. The body holds a tile of 400 nodes; for node `r` of the tile
  and feature `f` the stored entry depends only on that node's row: its two per-node scalars, its 32 pairs of
  per-neighbour scalars, and feature `f` of its 32 neighbours. It is the attention of that row: the softmax over the
  neighbours of the rectified pre-activations, applied to the neighbours' feature `f`.
-/
import proofs.«166109_j1451698946384_1_alg».proof.Proof.Gen.KernelIdeal.Skeleton
import proofs.«166109_j1451698946384_1_alg».proof.Proof.Attn
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx

/-! ## Indices -/

/-- Neighbour `k` inserted into the per-node index `(r, 0)` is `(r, k, 0)`. -/
theorem lift_col (h : S400x32x1.Reduces [1] S400x1) (r : Fin 400) (k : Fin 32) :
    h.lift (ix2 r (0 : Fin 1)) k = ix3 r k (0 : Fin 1) := by
  funext c; apply Fin.ext
  match c with
  | ⟨0, _⟩ => rfl
  | ⟨1, _⟩ => rfl
  | ⟨2, _⟩ => rfl

/-- Neighbour `k` inserted into the output index `(r, f)` is `(r, k, f)`. -/
theorem lift_feat (h : S400x32x128.Reduces [1] S400x128) (r : Fin 400) (f : Fin 128) (k : Fin 32) :
    h.lift (ix2 r f) k = ix3 r k f := by
  funext c; apply Fin.ext
  match c with
  | ⟨0, _⟩ => rfl
  | ⟨1, _⟩ => rfl
  | ⟨2, _⟩ => rfl

/-! ## The layout operations at an index -/

/-- A per-node column viewed with two unit axes reads the column. -/
theorem cast_col {α : Type} (v : S400x1.Idx → α) (h : S400x1.ShapeCasts S400x1x1) (r : Fin 400) :
    shapeCast S400x1x1 v h (ix3 r (0 : Fin 1) (0 : Fin 1)) = v (ix2 r (0 : Fin 1)) :=
  shapeCast_apply v h _ (ix2 r (0 : Fin 1)) (by
    rw [Shape.rowMajor_val_two, Shape.rowMajor_val_three]
    show r.val * 1 + 0 = (r.val * 1 + 0) * 1 + 0
    omega)

/-- A per-node value copied to the node's 32 neighbour slots. -/
theorem bcast_col {α : Type} (w : S400x1x1.Idx → α) (h : S400x1x1.Broadcasts S400x32x1) (r : Fin 400) (k : Fin 32) :
    broadcastTo S400x32x1 w h (ix3 r k (0 : Fin 1)) = w (ix3 r (0 : Fin 1) (0 : Fin 1)) :=
  broadcastTo_apply w h _ (ix3 r (0 : Fin 1) (0 : Fin 1)) (fun a => by
    match a with
    | ⟨0, _⟩ => rfl
    | ⟨1, _⟩ => rfl
    | ⟨2, _⟩ => rfl)

/-- A per-neighbour weight copied to the 128 features. -/
theorem bcast_feat {α : Type} (w : S400x32x1.Idx → α) (h : S400x32x1.Broadcasts S400x32x128) (r : Fin 400) (k : Fin 32)
    (f : Fin 128) : broadcastTo S400x32x128 w h (ix3 r k f) = w (ix3 r k (0 : Fin 1)) :=
  broadcastTo_apply w h _ (ix3 r k (0 : Fin 1)) (fun a => by
    match a with
    | ⟨0, _⟩ => rfl
    | ⟨1, _⟩ => rfl
    | ⟨2, _⟩ => rfl)

/-! ## The body's value by stages -/

/-- The pre-activation: the node's `a + 2·b` copied to its neighbours, plus each neighbour's `d + 2·c`. -/
def pre (x0 x1 : Vec Ideal S400x1 .f32) (x2 x3 : Vec Ideal S400x32x1 .f32) : FVec Ideal S400x32x1 .f32 :=
  addf
    (broadcastTo S400x32x1
      (addf (shapeCast S400x1x1 x0 shapeCasts_S400x1_S400x1x1)
        (mulf (broadcast S400x1x1 (Scalar.ofBits .f32 0x40000000#32)) (shapeCast S400x1x1 x1 shapeCasts_S400x1_S400x1x1)))
      broadcasts_S400x1x1_S400x32x1)
    (addf x3 (mulf (broadcast S400x32x1 (Scalar.ofBits .f32 0x40000000#32)) x2))

/-- The leaky rectifier, entry by entry. -/
def rect (v : FVec Ideal S400x32x1 .f32) : FVec Ideal S400x32x1 .f32 :=
  select (cmpf .oge v (broadcast S400x32x1 (Scalar.ofBits .f32 0x00000000#32))) v
    (mulf (broadcast S400x32x1 (Scalar.ofBits .f32 0x3C23D70A#32)) v)

/-- A per-node column copied to the node's neighbour slots. -/
def up (w : FVec Ideal S400x1 .f32) : FVec Ideal S400x32x1 .f32 :=
  broadcastTo S400x32x1 (shapeCast S400x1x1 w shapeCasts_S400x1_S400x1x1) broadcasts_S400x1x1_S400x32x1

/-- The exponentials of the logits less their row maximum. -/
def expo (L : FVec Ideal S400x32x1 .f32) : FVec Ideal S400x32x1 .f32 :=
  exp (subf L (up (multiReduction .maximumf [1] S400x1 L 0xFF800000#32 reduces_S400x32x1_S400x1 (.inl rfl) rfl)))

/-- The softmax weights. -/
def weights (L : FVec Ideal S400x32x1 .f32) : FVec Ideal S400x32x1 .f32 :=
  divf (expo L) (up (multiReduction .add [1] S400x1 (expo L) 0x00000000#32 reduces_S400x32x1_S400x1 (.inl rfl) rfl))

/-- The stored tile. -/
def tile (x0 x1 : Vec Ideal S400x1 .f32) (x2 x3 : Vec Ideal S400x32x1 .f32) (x4 : Vec Ideal S400x32x128 .f32) :
    FVec Ideal S400x128 .f32 :=
  multiReduction .add [1] S400x128
    (mulf (broadcastTo S400x32x128 (weights (rect (pre x0 x1 x2 x3))) broadcasts_S400x32x1_S400x32x128) x4)
    0x00000000#32 reduces_S400x32x128_S400x128 (.inl rfl) rfl

/-- The body's stored value is these stages composed. -/
theorem pay_eq (x0 x1 : Vec Ideal S400x1 .f32) (x2 x3 : Vec Ideal S400x32x1 .f32) (x4 : Vec Ideal S400x32x128 .f32) :
    k0_pay1 (F := Ideal) x0 x1 x2 x3 x4 = tile x0 x1 x2 x3 x4 := rfl

/-! ## Each stage at an index -/

theorem pre_apply (x0 x1 : Vec Ideal S400x1 .f32) (x2 x3 : Vec Ideal S400x32x1 .f32) (r : Fin 400) (k : Fin 32) :
    pre x0 x1 x2 x3 (ix3 r k (0 : Fin 1))
      = Gat.preK (x0 (ix2 r (0 : Fin 1))) (x1 (ix2 r (0 : Fin 1))) (x2 (ix3 r k (0 : Fin 1))) (x3 (ix3 r k (0 : Fin 1))) := by
  unfold pre Gat.preK
  show broadcastTo S400x32x1 _ broadcasts_S400x1x1_S400x32x1 (ix3 r k (0 : Fin 1)) + _ = _
  rw [bcast_col]
  show (shapeCast S400x1x1 x0 shapeCasts_S400x1_S400x1x1 (ix3 r (0 : Fin 1) (0 : Fin 1))
      + Ideal.ofBits .f32 0x40000000#32 * shapeCast S400x1x1 x1 shapeCasts_S400x1_S400x1x1 (ix3 r (0 : Fin 1) (0 : Fin 1))) + _ = _
  rw [cast_col, cast_col]
  rfl

theorem rect_apply (v : FVec Ideal S400x32x1 .f32) (i : S400x32x1.Idx) : rect v i = Gat.lrelu (v i) := rfl

theorem up_apply (w : FVec Ideal S400x1 .f32) (r : Fin 400) (k : Fin 32) :
    up w (ix3 r k (0 : Fin 1)) = w (ix2 r (0 : Fin 1)) := by
  unfold up
  rw [bcast_col, cast_col]

/-- The maximum over the neighbours, as the fold of `max` from `-∞`. -/
theorem max_apply (L : FVec Ideal S400x32x1 .f32) (r : Fin 400) :
    multiReduction .maximumf [1] S400x1 L 0xFF800000#32 reduces_S400x32x1_S400x1 (.inl rfl) rfl (ix2 r (0 : Fin 1))
      = Gat.rowMax (fun k => L (ix3 r k (0 : Fin 1))) :=
  (Ideal.multiReduction_maximumf_single L 0xFF800000#32 reduces_S400x32x1_S400x1 (.inl rfl) rfl (ix2 r (0 : Fin 1))).trans
    (congrArg (fun g => (Finset.univ : Finset (Fin 32)).fold max (Ideal.ofBits .f32 0xFF800000#32) g)
      (funext fun k => congrArg L (lift_col reduces_S400x32x1_S400x1 r k)))

/-- The sum over the neighbours. -/
theorem sum_apply (E : FVec Ideal S400x32x1 .f32) (r : Fin 400) :
    multiReduction .add [1] S400x1 E 0x00000000#32 reduces_S400x32x1_S400x1 (.inl rfl) rfl (ix2 r (0 : Fin 1))
      = ∑ k : Fin 32, E (ix3 r k (0 : Fin 1)) :=
  (Ideal.multiReduction_add_single E 0x00000000#32 reduces_S400x32x1_S400x1 (.inl rfl) rfl (ix2 r (0 : Fin 1))).trans
    (Finset.sum_congr rfl fun k _ => congrArg E (lift_col reduces_S400x32x1_S400x1 r k))

/-- The sum over the neighbours of a feature column. -/
theorem feat_sum_apply (P : FVec Ideal S400x32x128 .f32) (r : Fin 400) (f : Fin 128) :
    multiReduction .add [1] S400x128 P 0x00000000#32 reduces_S400x32x128_S400x128 (.inl rfl) rfl (ix2 r f)
      = ∑ k : Fin 32, P (ix3 r k f) :=
  (Ideal.multiReduction_add_single P 0x00000000#32 reduces_S400x32x128_S400x128 (.inl rfl) rfl (ix2 r f)).trans
    (Finset.sum_congr rfl fun k _ => congrArg P (lift_feat reduces_S400x32x128_S400x128 r f k))

theorem expo_apply (L : FVec Ideal S400x32x1 .f32) (r : Fin 400) (k : Fin 32) :
    expo L (ix3 r k (0 : Fin 1))
      = Ideal.exp (L (ix3 r k (0 : Fin 1)) - Gat.rowMax (fun k' => L (ix3 r k' (0 : Fin 1)))) := by
  unfold expo
  show Ideal.exp (L (ix3 r k (0 : Fin 1)) - up _ (ix3 r k (0 : Fin 1))) = _
  rw [up_apply, max_apply]

theorem weights_apply (L : FVec Ideal S400x32x1 .f32) (r : Fin 400) (k : Fin 32) :
    weights L (ix3 r k (0 : Fin 1)) = Gat.wt (fun k' => L (ix3 r k' (0 : Fin 1))) k := by
  unfold weights Gat.wt
  show Ideal.div (expo L (ix3 r k (0 : Fin 1))) (up _ (ix3 r k (0 : Fin 1))) = _
  rw [up_apply, sum_apply, expo_apply]
  simp only [expo_apply]

/-- The stored entry for node `r` of the tile and feature `f`: the attention of the node's row. -/
theorem tile_apply (x0 x1 : Vec Ideal S400x1 .f32) (x2 x3 : Vec Ideal S400x32x1 .f32) (x4 : Vec Ideal S400x32x128 .f32)
    (r : Fin 400) (f : Fin 128) :
    tile x0 x1 x2 x3 x4 (ix2 r f)
      = Gat.agg (fun k => Gat.lrelu (Gat.preK (x0 (ix2 r (0 : Fin 1))) (x1 (ix2 r (0 : Fin 1))) (x2 (ix3 r k (0 : Fin 1)))
          (x3 (ix3 r k (0 : Fin 1))))) (fun k => x4 (ix3 r k f)) := by
  unfold tile Gat.agg
  rw [feat_sum_apply]
  refine Finset.sum_congr rfl fun k _ => ?_
  show broadcastTo S400x32x128 _ broadcasts_S400x32x1_S400x32x128 (ix3 r k f) * x4 (ix3 r k f) = _
  rw [bcast_feat, weights_apply]
  simp only [rect_apply, pre_apply]

end Cert.KernelIdeal.Row

end
-- ==== Proof.KernelArray.lean ====
/-
  From tiles to the whole array. Grid point `t` of the 125 works on nodes 400·t … 400·t + 399: every window's block at
  `t` starts at row 400·t of its array, and the output's 125 blocks tile the 50000 × 128 result. So the entry the body
  stores for node `r` of tile `t` is the attention of node 400·t + r read off the argument arrays, and after the run the
  result array holds, at every (n, f), the attention of node `n`'s row applied to feature `f`.
-/
import proofs.«166109_j1451698946384_1_alg».proof.Proof.Gen.KernelIdeal.Value
import proofs.«166109_j1451698946384_1_alg».proof.Proof.KernelRow

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

/-- The attention of node `n`'s row applied to feature `f`, off the five argument arrays. -/
def entry (a0 a1 : S50000x1.Idx → Elt Ideal .f32) (a2 a3 : S50000x32x1.Idx → Elt Ideal .f32)
    (a4 : S50000x32x128.Idx → Elt Ideal .f32) (n : Fin 50000) (f : Fin 128) : Elt Ideal .f32 :=
  Gat.agg (fun k => Gat.lrelu (Gat.preK (a0 (ix2 n (0 : Fin 1))) (a1 (ix2 n (0 : Fin 1))) (a2 (ix3 n k (0 : Fin 1)))
    (a3 (ix3 n k (0 : Fin 1))))) (fun k => a4 (ix3 n k f))

/-- The whole result array as one function of the argument arrays. -/
def whole (a0 a1 : S50000x1.Idx → Elt Ideal .f32) (a2 a3 : S50000x32x1.Idx → Elt Ideal .f32)
    (a4 : S50000x32x128.Idx → Elt Ideal .f32) : S50000x128.Idx → Elt Ideal .f32 :=
  fun i => entry a0 a1 a2 a3 a4 (i 0) (i 1)

theorem whole_apply (a0 a1 : S50000x1.Idx → Elt Ideal .f32) (a2 a3 : S50000x32x1.Idx → Elt Ideal .f32)
    (a4 : S50000x32x128.Idx → Elt Ideal .f32) (n : Fin 50000) (f : Fin 128) :
    whole a0 a1 a2 a3 a4 (ix2 n f) = entry a0 a1 a2 a3 a4 n f := rfl

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 125 points: every window's block index is the point's number on the
    node axis and zero on the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

/-- Node `r` of tile `t` is node 400·t + r. -/
theorem row_lt (t : Fin cfg0.N) (r : Fin 400) : 400 * t.val + r.val < 50000 := by
  have ht : t.val < 125 := t.isLt
  have hr : r.val < 400 := r.isLt
  omega

/-- The node of the whole arrays that node `r` of tile `t` is. -/
def node (t : Fin cfg0.N) (r : Fin 400) : Fin 50000 := ⟨400 * t.val + r.val, row_lt t r⟩

/-! ## Each window's block at a point, read at an entry -/

theorem blk0 (c : Dev nD) (t : Fin cfg0.N) (r : Fin 400) :
    iblk m c 0 t (ix2 r (0 : Fin 1)) = V m c main_arg0 (ix2 (node t r) (0 : Fin 1)) := by
  obtain ⟨e0, e1, -⟩ := idx_facts t
  show V m c main_arg0 (((cfg0.win 0).blk t).view.emb (ix2 r (0 : Fin 1))) = _
  refine congrArg (V m c main_arg0) (funext fun a => Fin.ext ?_)
  match a with
  | ⟨0, _⟩ => show win0_0.index t (0 : Fin 2) * 400 + 1 * r.val = 400 * t.val + r.val; omega
  | ⟨1, _⟩ => show win0_0.index t (1 : Fin 2) * 1 + 1 * 0 = 0; omega

theorem blk1 (c : Dev nD) (t : Fin cfg0.N) (r : Fin 400) :
    iblk m c 1 t (ix2 r (0 : Fin 1)) = V m c main_arg1 (ix2 (node t r) (0 : Fin 1)) := by
  obtain ⟨-, -, e0, e1, -⟩ := idx_facts t
  show V m c main_arg1 (((cfg0.win 1).blk t).view.emb (ix2 r (0 : Fin 1))) = _
  refine congrArg (V m c main_arg1) (funext fun a => Fin.ext ?_)
  match a with
  | ⟨0, _⟩ => show win0_1.index t (0 : Fin 2) * 400 + 1 * r.val = 400 * t.val + r.val; omega
  | ⟨1, _⟩ => show win0_1.index t (1 : Fin 2) * 1 + 1 * 0 = 0; omega

theorem blk2 (c : Dev nD) (t : Fin cfg0.N) (r : Fin 400) (k : Fin 32) :
    iblk m c 2 t (ix3 r k (0 : Fin 1)) = V m c main_arg2 (ix3 (node t r) k (0 : Fin 1)) := by
  obtain ⟨-, -, -, -, e0, e1, e2, -⟩ := idx_facts t
  show V m c main_arg2 (((cfg0.win 2).blk t).view.emb (ix3 r k (0 : Fin 1))) = _
  refine congrArg (V m c main_arg2) (funext fun a => Fin.ext ?_)
  match a with
  | ⟨0, _⟩ => show win0_2.index t (0 : Fin 3) * 400 + 1 * r.val = 400 * t.val + r.val; omega
  | ⟨1, _⟩ => show win0_2.index t (1 : Fin 3) * 32 + 1 * k.val = k.val; omega
  | ⟨2, _⟩ => show win0_2.index t (2 : Fin 3) * 1 + 1 * 0 = 0; omega

theorem blk3 (c : Dev nD) (t : Fin cfg0.N) (r : Fin 400) (k : Fin 32) :
    iblk m c 3 t (ix3 r k (0 : Fin 1)) = V m c main_arg3 (ix3 (node t r) k (0 : Fin 1)) := by
  obtain ⟨-, -, -, -, -, -, -, e0, e1, e2, -⟩ := idx_facts t
  show V m c main_arg3 (((cfg0.win 3).blk t).view.emb (ix3 r k (0 : Fin 1))) = _
  refine congrArg (V m c main_arg3) (funext fun a => Fin.ext ?_)
  match a with
  | ⟨0, _⟩ => show win0_3.index t (0 : Fin 3) * 400 + 1 * r.val = 400 * t.val + r.val; omega
  | ⟨1, _⟩ => show win0_3.index t (1 : Fin 3) * 32 + 1 * k.val = k.val; omega
  | ⟨2, _⟩ => show win0_3.index t (2 : Fin 3) * 1 + 1 * 0 = 0; omega

theorem blk4 (c : Dev nD) (t : Fin cfg0.N) (r : Fin 400) (k : Fin 32) (f : Fin 128) :
    iblk m c 4 t (ix3 r k f) = V m c main_arg4 (ix3 (node t r) k f) := by
  obtain ⟨-, -, -, -, -, -, -, -, -, -, e0, e1, e2, -⟩ := idx_facts t
  show V m c main_arg4 (((cfg0.win 4).blk t).view.emb (ix3 r k f)) = _
  refine congrArg (V m c main_arg4) (funext fun a => Fin.ext ?_)
  match a with
  | ⟨0, _⟩ => show win0_4.index t (0 : Fin 3) * 400 + 1 * r.val = 400 * t.val + r.val; omega
  | ⟨1, _⟩ => show win0_4.index t (1 : Fin 3) * 32 + 1 * k.val = k.val; omega
  | ⟨2, _⟩ => show win0_4.index t (2 : Fin 3) * 128 + 1 * f.val = f.val; omega

/-- Entry (r, f) of the output's block at `t` is entry (400·t + r, f) of the array. -/
theorem blk5 (t : Fin cfg0.N) (r : Fin 400) (f : Fin 128) :
    ((cfg0.win 5).blk t).view.emb (ix2 r f) = ix2 (node t r) f := by
  obtain ⟨-, -, -, -, -, -, -, -, -, -, -, -, -, e0, e1⟩ := idx_facts t
  refine funext fun a => Fin.ext ?_
  match a with
  | ⟨0, _⟩ => show win0_5.index t (0 : Fin 2) * 400 + 1 * r.val = 400 * t.val + r.val; omega
  | ⟨1, _⟩ => show win0_5.index t (1 : Fin 2) * 128 + 1 * f.val = f.val; omega

/-! ## What a point writes back, the cover, and the array after the run -/

/-- What point `t` writes back is block `t` of `whole` of the argument arrays. -/
theorem flushed_eq (c : Dev nD) (t : Fin cfg0.N) :
    (dats m 0 c).flushed 5 t = ((cfg0.win 5).blk t).view.read (Elt Ideal)
      (whole (V m c main_arg0) (V m c main_arg1) (V m c main_arg2) (V m c main_arg3) (V m c main_arg4)) := by
  rw [Value.flushed5]
  unfold out0_5
  rw [View.canon_unit_zero hz2]
  simp only [View.ld_unit_zero (S := S400x1) hz2, View.ld_unit_zero (S := S400x32x1) hz3,
    View.ld_unit_zero (S := S400x32x128) hz3]
  rw [Row.pay_eq]
  funext j
  obtain ⟨r, f, rfl⟩ : ∃ (r : Fin 400) (f : Fin 128), j = ix2 r f := ⟨j 0, j 1, eq_ix2 j⟩
  show Row.tile (iblk m c 0 t) (iblk m c 1 t) (iblk m c 2 t) (iblk m c 3 t) (iblk m c 4 t) (ix2 r f)
    = whole (V m c main_arg0) (V m c main_arg1) (V m c main_arg2) (V m c main_arg3) (V m c main_arg4)
        (((cfg0.win 5).blk t).view.emb (ix2 r f))
  rw [Row.tile_apply, blk5, whole_apply, blk0, blk1]
  unfold entry
  simp only [blk2, blk3, blk4]

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S400x128.size a ≤ (i a).val
      ∧ (i a).val < win0_5.index t a * S400x128.size a + S400x128.size a := by
  show i ∈ ((View.whole main_v0).slice (win0_5.rect t)).set ↔ _
  rw [View.set_slice_whole, Rect.mem_set_unit]
  exact Iff.rfl

/-- Every entry of the result array is in the block of the point its node's tile is: point `n / 400`. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hq : (i 0).val / 400 < 125 := by omega
  refine ⟨⟨(i 0).val / 400, hq⟩, flush0_5 _, ?_⟩
  obtain ⟨-, -, -, -, -, -, -, -, -, -, -, -, -, e0, e1⟩ := idx_facts ⟨(i 0).val / 400, hq⟩
  have e0' : win0_5.index ⟨(i 0).val / 400, hq⟩ (0 : Fin 2) = (i 0).val / 400 := e0
  rw [mem_blk]
  intro a
  match a with
  | ⟨0, _⟩ =>
    show win0_5.index ⟨(i 0).val / 400, hq⟩ (0 : Fin 2) * 400 ≤ (i 0).val
      ∧ (i 0).val < win0_5.index ⟨(i 0).val / 400, hq⟩ (0 : Fin 2) * 400 + 400
    omega
  | ⟨1, _⟩ =>
    show win0_5.index ⟨(i 0).val / 400, hq⟩ (1 : Fin 2) * 128 ≤ (i 1).val
      ∧ (i 1).val < win0_5.index ⟨(i 0).val / 400, hq⟩ (1 : Fin 2) * 128 + 128
    omega

/-- The result array after the run is `whole` of the argument arrays as launched. -/
theorem final (c : Dev nD) :
    (dats m 0 c).arrAt 5 cfg0.N
      = whole (m ((c : Thread nD τ).loc main_arg0)) (m ((c : Thread nD τ).loc main_arg1)) (m ((c : Thread nD τ).loc main_arg2))
          (m ((c : Thread nD τ).loc main_arg3)) (m ((c : Thread nD τ).loc main_arg4)) :=
  (dats m 0 c).arrAt_eq_of_cover 5 _ (fun t _ => flushed_eq m c t) cover

/-- Every weakly fair execution of the kernel's program terminates with the result array at `whole` of the
    arguments, and the arguments unchanged. -/
theorem run : θ_run defs (onTc (τ := τ) (main (F := Ideal))) ⟨m, fun _ => 0, ρ⟩ fun r => ∀ c : Dev nD,
      r.2.mem ((c : Thread nD τ).loc main_v0)
        = whole (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Arr

end
-- ==== Proof.Finite.lean ====
/-
  What the precondition gives: it is the conjunction, over the five inputs, of "every entry's absolute value is
  below +∞". On the extended reals that says every entry is a real number. Only the four small inputs are needed
  (the pre-activation's two groupings agree on reals); the features enter both sides the same way.
-/
import proofs.«166109_j1451698946384_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- A rank-0 array has one index. -/
instance : Subsingleton S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- Under the precondition every entry of the four small inputs is a real number. -/
theorem reals_of_pre [Facts] (a0 a1 : FVec Ideal S50000x1 .f32) (a2 a3 : FVec Ideal S50000x32x1 .f32)
    (a4 : FVec Ideal S50000x32x128 .f32) (h : fn (F := Ideal) a0 a1 a2 a3 a4 = fun _ => 1#1) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ValueIdx.ix0
  dsimp only [fn, fn_part1] at h0
  obtain ⟨h18, -⟩ := IntOp.andi_eq_one.mp h0
  obtain ⟨h13, h17⟩ := IntOp.andi_eq_one.mp h18
  obtain ⟨h8, h12⟩ := IntOp.andi_eq_one.mp h13
  obtain ⟨h3, h7⟩ := IntOp.andi_eq_one.mp h8
  exact ⟨fun i => real_of_abs_lt _ (Host.reduce_andi_all _ _ _ _ _ h3 i),
    fun i => real_of_abs_lt _ (Host.reduce_andi_all _ _ _ _ _ h7 i),
    fun i => real_of_abs_lt _ (Host.reduce_andi_all _ _ _ _ _ h12 i),
    fun i => real_of_abs_lt _ (Host.reduce_andi_all _ _ _ _ _ h17 i)⟩

end Cert.Finite

end
-- ==== Proof.RefRow.lean ====
/-
  The reference's result, read at one entry. For node `n` and feature `f` it depends only on the node's row: it is the
  attention of that row (the softmax over the 32 neighbours of the rectified pre-activations, applied to the
  neighbours' feature `f`), with the pre-activation in the reference's grouping. The host's sums start from a zero, its
  maximum is joined once more with `-∞`, and one sum runs over an axis of a single element: none of these changes
  a value.
-/
import proofs.«166109_j1451698946384_1_alg».proof.Proof.RefRun
import proofs.«166109_j1451698946384_1_alg».proof.Proof.Attn
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefRow

open Cert.ReferenceIdeal Cert.ReferenceIdeal.Gen Idealize.ShloMosaic Idealize.ShloMosaic.ValueIdx

/-! ## Indices -/

theorem red_last : S50000x32x1.Reduces [2] S50000x32 := by decide
theorem red_col : S50000x32x1.Reduces [1] S50000x1 := by decide
theorem red_feat : S50000x32x128.Reduces [1] S50000x128 := by decide

/-- The one element of the last axis inserted into `(n, k)` is `(n, k, 0)`. -/
theorem lift_last (h : S50000x32x1.Reduces [2] S50000x32) (n : Fin 50000) (k : Fin 32) (j : Fin 1) :
    h.lift (ix2 n k) j = ix3 n k (0 : Fin 1) := by
  funext c; apply Fin.ext
  match c with
  | ⟨0, _⟩ => rfl
  | ⟨1, _⟩ => rfl
  | ⟨2, _⟩ => show j.val = 0; omega

/-- Neighbour `k` inserted into the per-node index `(n, 0)` is `(n, k, 0)`. -/
theorem lift_col (h : S50000x32x1.Reduces [1] S50000x1) (n : Fin 50000) (k : Fin 32) :
    h.lift (ix2 n (0 : Fin 1)) k = ix3 n k (0 : Fin 1) := by
  funext c; apply Fin.ext
  match c with
  | ⟨0, _⟩ => rfl
  | ⟨1, _⟩ => rfl
  | ⟨2, _⟩ => rfl

/-- Neighbour `k` inserted into the output index `(n, f)` is `(n, k, f)`. -/
theorem lift_feat (h : S50000x32x128.Reduces [1] S50000x128) (n : Fin 50000) (f : Fin 128) (k : Fin 32) :
    h.lift (ix2 n f) k = ix3 n k f := by
  funext c; apply Fin.ext
  match c with
  | ⟨0, _⟩ => rfl
  | ⟨1, _⟩ => rfl
  | ⟨2, _⟩ => rfl

/-! ## The layout operations at an index -/

/-- A per-node column copied to the node's 32 neighbour slots reads the column. -/
theorem up_apply (a : FVec Ideal S50000x1 .f32) (n : Fin 50000) (k : Fin 32) :
    RefRun.up a (ix3 n k (0 : Fin 1)) = a (ix2 n (0 : Fin 1)) := by
  unfold RefRun.up
  refine (broadcastInDim_apply _ _ _ _ (ix3 n (0 : Fin 1) (0 : Fin 1)) (fun c => by
    match c with
    | ⟨0, _⟩ => rfl
    | ⟨1, _⟩ => rfl
    | ⟨2, _⟩ => rfl)).trans ?_
  exact broadcastInDim_apply _ _ _ _ (ix2 n (0 : Fin 1)) (fun c => by
    match c with
    | ⟨0, _⟩ => rfl
    | ⟨1, _⟩ => rfl)

/-- A per-neighbour value given back its unit last axis. -/
theorem back_apply {α : Type} (v : S50000x32.Idx → α) (h : S50000x32.BroadcastsInDim S50000x32x1 ![0, 1]) (n : Fin 50000)
    (k : Fin 32) : broadcastInDim S50000x32x1 ![0, 1] h v (ix3 n k (0 : Fin 1)) = v (ix2 n k) :=
  broadcastInDim_apply _ _ _ _ (ix2 n k) (fun c => by
    match c with
    | ⟨0, _⟩ => rfl
    | ⟨1, _⟩ => rfl)

/-- A per-neighbour weight copied to the 128 features. -/
theorem feat_apply {α : Type} (w : S50000x32x1.Idx → α) (h : S50000x32x1.BroadcastsInDim S50000x32x128 ![0, 1, 2])
    (n : Fin 50000) (k : Fin 32) (f : Fin 128) :
    broadcastInDim S50000x32x128 ![0, 1, 2] h w (ix3 n k f) = w (ix3 n k (0 : Fin 1)) :=
  broadcastInDim_apply _ _ _ _ (ix3 n k (0 : Fin 1)) (fun c => by
    match c with
    | ⟨0, _⟩ => rfl
    | ⟨1, _⟩ => rfl
    | ⟨2, _⟩ => rfl)

/-! ## The host's sums and maximum at an index -/

/-- The sum over the one-element last axis: the zero it starts from plus the element. -/
theorem sum_last_apply (x : FVec Ideal S50000x32x1 .f32) (n : Fin 50000) (k : Fin 32) :
    Host.reduceAdd x (constant (F := Ideal) S_ .f32 0x00000000#32) reducesTo_S50000x32x1_S50000x32_d2 h_S_ (ix2 n k)
      = Ideal.ofBits .f32 0x00000000#32 + x (ix3 n k (0 : Fin 1)) := by
  refine (hostReduceAdd_apply x _ _ _ _).trans ?_
  refine (Ideal.hostReduceAdd_single reducesTo_S50000x32x1_S50000x32_d2 red_last x _ (ix2 n k)).trans ?_
  refine congrArg (Ideal.ofBits .f32 0x00000000#32 + ·) ?_
  refine (Finset.sum_congr rfl fun j _ => congrArg x (lift_last red_last n k j)).trans ?_
  exact (Finset.sum_const _).trans (one_smul _ _)

/-- A sum over the neighbours: the zero it starts from plus the 32 terms. -/
theorem sum_col_apply (E : FVec Ideal S50000x32x1 .f32) (n : Fin 50000) :
    Host.reduceAdd E (constant (F := Ideal) S_ .f32 0x00000000#32) reducesTo_S50000x32x1_S50000x1_d1 h_S_ (ix2 n (0 : Fin 1))
      = Ideal.ofBits .f32 0x00000000#32 + ∑ k : Fin 32, E (ix3 n k (0 : Fin 1)) := by
  refine (hostReduceAdd_apply E _ _ _ _).trans ?_
  refine (Ideal.hostReduceAdd_single reducesTo_S50000x32x1_S50000x1_d1 red_col E _ (ix2 n (0 : Fin 1))).trans ?_
  exact congrArg (Ideal.ofBits .f32 0x00000000#32 + ·)
    (Finset.sum_congr rfl fun k _ => congrArg E (lift_col red_col n k))

/-- The sum over the neighbours of a feature column. -/
theorem sum_feat_apply (P : FVec Ideal S50000x32x128 .f32) (n : Fin 50000) (f : Fin 128) :
    Host.reduceAdd P (constant (F := Ideal) S_ .f32 0x00000000#32) reducesTo_S50000x32x128_S50000x128_d1 h_S_ (ix2 n f)
      = Ideal.ofBits .f32 0x00000000#32 + ∑ k : Fin 32, P (ix3 n k f) := by
  refine (hostReduceAdd_apply P _ _ _ _).trans ?_
  refine (Ideal.hostReduceAdd_single reducesTo_S50000x32x128_S50000x128_d1 red_feat P _ (ix2 n f)).trans ?_
  exact congrArg (Ideal.ofBits .f32 0x00000000#32 + ·)
    (Finset.sum_congr rfl fun k _ => congrArg P (lift_feat red_feat n f k))

/-- The maximum over the neighbours, as the fold of `max` from `-∞`. -/
theorem max_col_apply (L : FVec Ideal S50000x32x1 .f32) (n : Fin 50000) :
    Host.reduce FloatOps.maximumf L (constant (F := Ideal) S_ .f32 0xFF800000#32) reducesTo_S50000x32x1_S50000x1_d1 h_S_
        (ix2 n (0 : Fin 1))
      = Gat.rowMax (fun k => L (ix3 n k (0 : Fin 1))) :=
  (Host.reduce_eq_fold_single FloatOps.maximumf L _ reducesTo_S50000x32x1_S50000x1_d1 red_col h_S_ (ix2 n (0 : Fin 1))).trans
    (congrArg (fun g => (Finset.univ : Finset (Fin 32)).fold max (Ideal.ofBits .f32 0xFF800000#32) g)
      (funext fun k => congrArg L (lift_col red_col n k)))

/-! ## Each stage at an index -/

theorem lrelu_apply (x : FVec Ideal S50000x32x1 .f32) (i : S50000x32x1.Idx) : RefRun.lrelu x i = Gat.lrelu (x i) := rfl

/-- The host's exponential at an index. -/
theorem hostExp_apply {s : Shape} (x : FVec Ideal s .f32) (i : s.Idx) : Host.exp x i = Ideal.exp (x i) := rfl

theorem logits_apply (a0 a1 : FVec Ideal S50000x1 .f32) (a2 a3 : FVec Ideal S50000x32x1 .f32) (n : Fin 50000) (k : Fin 32) :
    RefRun.logits a0 a1 a2 a3 (ix3 n k (0 : Fin 1))
      = Gat.lrelu (Gat.preR (a0 (ix2 n (0 : Fin 1))) (a1 (ix2 n (0 : Fin 1))) (a2 (ix3 n k (0 : Fin 1))) (a3 (ix3 n k (0 : Fin 1)))) := by
  unfold RefRun.logits
  rw [lrelu_apply, addf_apply, back_apply, sum_last_apply]
  simp only [addf_apply, up_apply]
  rfl

theorem rowMax_apply (L : FVec Ideal S50000x32x1 .f32) (n : Fin 50000) :
    RefRun.rowMax L (ix2 n (0 : Fin 1)) = Gat.rowMax (fun k => L (ix3 n k (0 : Fin 1))) := by
  unfold RefRun.rowMax
  rw [maximumf_apply, max_col_apply]
  exact Gat.max_rowMax _

theorem expo_apply (L : FVec Ideal S50000x32x1 .f32) (n : Fin 50000) (k : Fin 32) :
    RefRun.expo L (ix3 n k (0 : Fin 1))
      = Ideal.exp (L (ix3 n k (0 : Fin 1)) - Gat.rowMax (fun k' => L (ix3 n k' (0 : Fin 1)))) := by
  unfold RefRun.expo
  rw [hostExp_apply, subf_apply, up_apply, rowMax_apply]

theorem weights_apply (L : FVec Ideal S50000x32x1 .f32) (n : Fin 50000) (k : Fin 32) :
    RefRun.weights L (ix3 n k (0 : Fin 1)) = Gat.wt (fun k' => L (ix3 n k' (0 : Fin 1))) k := by
  unfold RefRun.weights Gat.wt
  rw [hostDivf_apply, up_apply, sum_col_apply, expo_apply, Ideal.ofBits_zero_f32, zero_add]
  simp only [expo_apply]

/-- The reference's entry for node `n` and feature `f`: the attention of the node's row. -/
theorem result_apply (a0 a1 : FVec Ideal S50000x1 .f32) (a2 a3 : FVec Ideal S50000x32x1 .f32) (a4 : FVec Ideal S50000x32x128 .f32)
    (n : Fin 50000) (f : Fin 128) :
    RefRun.result a0 a1 a2 a3 a4 (ix2 n f)
      = Gat.agg (fun k => Gat.lrelu (Gat.preR (a0 (ix2 n (0 : Fin 1))) (a1 (ix2 n (0 : Fin 1))) (a2 (ix3 n k (0 : Fin 1)))
          (a3 (ix3 n k (0 : Fin 1))))) (fun k => a4 (ix3 n k f)) := by
  unfold RefRun.result Gat.agg
  rw [sum_feat_apply, Ideal.ofBits_zero_f32, zero_add]
  refine Finset.sum_congr rfl fun k _ => ?_
  rw [mulf_apply, feat_apply, weights_apply]
  simp only [logits_apply]

end Cert.ReferenceIdeal.RefRow

end
-- ==== Proof.Bridge.lean ====
/-
  The two programs compute one array. At entry (n, f) both are the attention of node `n`'s row applied to feature `f`;
  they differ only in the grouping of the pre-activation under the rectifier, and on real inputs the two groupings
  are one number.
-/
import proofs.«166109_j1451698946384_1_alg».proof.Proof.RefRow
import proofs.«166109_j1451698946384_1_alg».proof.Proof.KernelArray
import proofs.«166109_j1451698946384_1_alg».proof.Proof.Attn

noncomputable section

namespace Cert.Bridge

open Idealize.ShloMosaic Idealize.ShloMosaic.ValueIdx

/-- On inputs whose four small arrays hold real numbers, the reference's result is the kernel's whole array. -/
theorem result_eq_whole (a0 a1 : FVec Ideal Cert.ReferenceIdeal.S50000x1 .f32)
    (a2 a3 : FVec Ideal Cert.ReferenceIdeal.S50000x32x1 .f32) (a4 : FVec Ideal Cert.ReferenceIdeal.S50000x32x128 .f32)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) :
    Cert.ReferenceIdeal.RefRun.result a0 a1 a2 a3 a4 = Cert.KernelIdeal.Arr.whole a0 a1 a2 a3 a4 := by
  funext i
  obtain ⟨n, f, rfl⟩ : ∃ (n : Fin 50000) (f : Fin 128), i = ix2 n f := ⟨i 0, i 1, eq_ix2 i⟩
  rw [Cert.ReferenceIdeal.RefRow.result_apply, Cert.KernelIdeal.Arr.whole_apply]
  unfold Cert.KernelIdeal.Arr.entry
  refine congrArg (fun L => Cert.Gat.agg L (fun k => a4 (ix3 n k f))) (funext fun k => congrArg Cert.Gat.lrelu ?_)
  obtain ⟨r0, e0⟩ := h0 (ix2 n (0 : Fin 1))
  obtain ⟨r1, e1⟩ := h1 (ix2 n (0 : Fin 1))
  obtain ⟨r2, e2⟩ := h2 (ix3 n k (0 : Fin 1))
  obtain ⟨r3, e3⟩ := h3 (ix3 n k (0 : Fin 1))
  rw [e0, e1, e2, e3]
  exact (Cert.Gat.preK_eq_preR r0 r1 r2 r3).symm

end Cert.Bridge

end
-- ==== Proof.lean ====
/-
  A graph-attention aggregation over 50000 nodes with 32 neighbours each and 128 features. For every node the
  logits are the leaky rectifier of a pre-activation built from two per-node scalars and two per-neighbour scalars;
  the weights are the softmax of the logits over the node's neighbours; the result is the neighbours' features summed
  with those weights. The kernel works tile by tile, 400 nodes at each of 125 grid points, and groups the
  pre-activation as (a + 2·b) + (d + 2·c); the reference works on whole arrays and groups it as
  ((a + d) + (b + c)) + (b + c). On the extended reals, for inputs that are real numbers, the two are one array:
  the groupings agree on reals, and everything after the pre-activation is the same function of it on both sides
  (a maximum over the neighbours, exponentials, their sum, quotients, products, a sum over the neighbours), whatever
  the tiling and whatever the order of the sums.

  Proof/Attn.lean states one node's attention and the law joining the two groupings; Proof/KernelRow.lean reads the
  kernel body's stored tile at an entry and Proof/KernelArray.lean joins the 125 tiles into the whole array;
  Proof/RefRun.lean is the reference's run and Proof/RefRow.lean reads its result at an entry; Proof/Finite.lean reads
  the precondition as "every entry is a real number"; Proof/Bridge.lean joins the two sides.
-/
import proofs.«166109_j1451698946384_1_alg».proof.Defs
import proofs.«166109_j1451698946384_1_alg».proof.Proof.Gen.Kernel
import proofs.«166109_j1451698946384_1_alg».proof.Proof.Gen.Kernel.Skeleton
import proofs.«166109_j1451698946384_1_alg».proof.Proof.Gen.Kernel.Launch
import proofs.«166109_j1451698946384_1_alg».proof.Proof.Gen.Kernel.Points
import proofs.«166109_j1451698946384_1_alg».proof.Proof.Gen.Kernel.Frame
import proofs.«166109_j1451698946384_1_alg».proof.Proof.Gen.KernelIdeal
import proofs.«166109_j1451698946384_1_alg».proof.Proof.Gen.KernelIdeal.Skeleton
import proofs.«166109_j1451698946384_1_alg».proof.Proof.Gen.KernelIdeal.Launch
import proofs.«166109_j1451698946384_1_alg».proof.Proof.Gen.KernelIdeal.Points
import proofs.«166109_j1451698946384_1_alg».proof.Proof.Gen.KernelIdeal.Frame
import proofs.«166109_j1451698946384_1_alg».proof.Proof.Gen.KernelIdeal.Value
import proofs.«166109_j1451698946384_1_alg».proof.Proof.Gen.ReferenceIdeal
import proofs.«166109_j1451698946384_1_alg».proof.Proof.Gen.Pre_finite_inputs
import proofs.«166109_j1451698946384_1_alg».proof.Proof.RefRun
import proofs.«166109_j1451698946384_1_alg».proof.Proof.KernelArray
import proofs.«166109_j1451698946384_1_alg».proof.Proof.Finite
import proofs.«166109_j1451698946384_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run, with the result forgotten. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- From memories that agree on the five arguments, all of them real numbers, the idealized kernel and the idealized
    reference end with the same result array: at every (n, f) the attention of node `n`'s row applied to feature `f`. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.KernelIdeal.Arr.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Arr.run m ρ, ?_⟩
  refine (θ_run Cert.ReferenceIdeal.defs _ _).mono (fun _ h c => ⟨(h c).1.trans ?_, (h c).2⟩)
    (Cert.ReferenceIdeal.RefRun.run (F := Ideal) m' ρ')
  obtain ⟨r0, r1, r2, r3⟩ := Cert.Finite.reals_of_pre _ _ _ _ _ (hpre c)
  rw [(hagree c).1, (hagree c).2.1, (hagree c).2.2.1, (hagree c).2.2.2.1, (hagree c).2.2.2.2]
  exact Cert.Bridge.result_eq_whole _ _ _ _ _ r0 r1 r2 r3

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
